-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S4096x4096, .bf16⟩
  | .hbm, ⟨5, _⟩ => ⟨S1x4096, .f32⟩
  | .hbm, ⟨6, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x4096.size a
  hwx0_3 : ∀ i : grid0.Coords, EltTy.bits .f32 = 32 ∨ (Rect.block (s := S4096x4096) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S4096x16x256 : Shape := ⟨3, ![4096, 16, 256]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x16x256, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S4096x16x256, .f32⟩
  | .hbm, ⟨15, _⟩ => ⟨S4096x16x256, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x16x256 : S4096x4096.ShapeCasts S4096x16x256
  reducesTo_S4096x16x256_S4096x16_d2 : S4096x16x256.ReducesTo [2] S4096x16
  h_S_ : 0 < S_.numel
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x256_0_1_2 : S4096x16x1.BroadcastsInDim S4096x16x256 (![0, 1, 2] : Fin 3 → Fin S4096x16x256.rank)
  shapeCasts_S4096x16x256_S4096x4096 : S4096x16x256.ShapeCasts S4096x4096
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.BlockGeluSpec.lean ====
/-
  The function both programs compute, entry by entry, on the extended reals.

  A linear layer `y[r, c] = (∑ₖ x[r, k] · w[c, k]) + b[c]` over 4096 rows and 4096 columns; the columns are taken in
  16 groups of 256 consecutive ones, and from every entry is subtracted the sum of its row over its own group divided
  by the constant 4096 (the divisor is the number of ALL columns, not the group's width: both programs spell it so);
  to the centred value `z` a tanh-form activation with a clamped tanh is applied:
  `a = κ₁ · (z + κ₀ · z · z · z)`, `t = 1` if `a > 5`, `-1` if `a < -5`, else `tanh a`, and the result is `(½ · z) · (1 + t)`.
  The float constants are kept as their binary words: the same words appear in both programs, so none is evaluated.
  No law beyond re-indexing a finite sum joins the two programs, so nothing here asks for finiteness of the inputs.
-/
import Idealize.ShloMosaic.PureOps.Ideal
import Idealize.ShloMosaic.PureOps.Ideal.Laws
import Idealize.ShloMosaic.Lib.ValueIdx

noncomputable section

namespace Cert.BlockGelu

open Idealize.ShloMosaic Idealize.ShloMosaic.ValueIdx

/-- The linear layer's entry at row `r`, column `c`: the row of `x` against the row `c` of `w`, plus the bias at `c`. -/
def lin (x w : (⟨2, ![4096, 4096]⟩ : Shape).Idx → EReal) (b : (⟨1, ![4096]⟩ : Shape).Idx → EReal) (r c : Fin 4096) : EReal :=
  (∑ k : Fin 4096, x (ix2 r k) * w (ix2 c k)) + b (ix1 c)

/-- Column `j` of the `q`-th group of 256 columns. -/
def col (q : Fin 16) (j : Fin 256) : Fin 4096 :=
  ⟨q.val * 256 + j.val, by have := q.isLt; have := j.isLt; omega⟩

/-- The group a column lies in. -/
def grp (c : Fin 4096) : Fin 16 := ⟨c.val / 256, by have := c.isLt; omega⟩

/-- A column's place inside its group. -/
def off (c : Fin 4096) : Fin 256 := ⟨c.val % 256, Nat.mod_lt _ (by decide)⟩

theorem grp_col (q : Fin 16) (j : Fin 256) : grp (col q j) = q := by
  apply Fin.ext
  show (q.val * 256 + j.val) / 256 = q.val
  have := j.isLt
  omega

theorem col_grp_off (c : Fin 4096) : col (grp c) (off c) = c := by
  apply Fin.ext
  show c.val / 256 * 256 + c.val % 256 = c.val
  omega

/-- The sum of row `r` of the linear layer over the `q`-th group of columns. -/
def grpSum (x w : (⟨2, ![4096, 4096]⟩ : Shape).Idx → EReal) (b : (⟨1, ![4096]⟩ : Shape).Idx → EReal) (r : Fin 4096) (q : Fin 16) : EReal :=
  ∑ j : Fin 256, lin x w b r (col q j)

/-- The centred entry: the linear layer's entry less its row's group sum over 4096. -/
def centred (x w : (⟨2, ![4096, 4096]⟩ : Shape).Idx → EReal) (b : (⟨1, ![4096]⟩ : Shape).Idx → EReal) (r c : Fin 4096) : EReal :=
  lin x w b r c - Ideal.div (grpSum x w b r (grp c)) (Ideal.ofBits .f32 0x45800000#32)

/-- The argument of the tanh: `κ₁ · (z + κ₀ · z · z · z)`, the products taken left to right. -/
def targ (z : EReal) : EReal :=
  Ideal.ofBits .f32 0x3F4C422A#32 * (z + Ideal.ofBits .f32 0x3D372713#32 * z * z * z)

/-- The tanh clamped: `1` above 5, `-1` below `-5`, the tanh between. -/
def clamped (a : EReal) : EReal :=
  Scalar.select (Ideal.cmp .ogt a (Ideal.ofBits .f32 0x40A00000#32)) (Ideal.ofBits .f32 0x3F800000#32)
    (Scalar.select (Ideal.cmp .olt a (Ideal.ofBits .f32 0xC0A00000#32)) (Ideal.ofBits .f32 0xBF800000#32) (Ideal.tanh a))

/-- The activation: `(½ · z) · (1 + clamped (targ z))`. -/
def act (z : EReal) : EReal :=
  Ideal.ofBits .f32 0x3F000000#32 * z * (Ideal.ofBits .f32 0x3F800000#32 + clamped (targ z))

/-- THE RESULT as one function of the three argument arrays, entry by entry. -/
def G (x w : (⟨2, ![4096, 4096]⟩ : Shape).Idx → EReal) (b : (⟨1, ![4096]⟩ : Shape).Idx → EReal) :
    (⟨2, ![4096, 4096]⟩ : Shape).Idx → EReal :=
  fun i => act (centred x w b (i 0) (i 1))

theorem G_ix2 (x w : (⟨2, ![4096, 4096]⟩ : Shape).Idx → EReal) (b : (⟨1, ![4096]⟩ : Shape).Idx → EReal) (r c : Fin 4096) :
    G x w b (ix2 r c) = act (centred x w b r c) := rfl

end Cert.BlockGelu

end
-- ==== Proof.ReferenceIsSpec.lean ====
/-
  The reference program's result is the specified function `G` of its three arguments.

  Read one operation at a time: the reference forms the linear layer (a contraction over the second axes plus the bias
  spread over the rows), re-lays each row of 4096 entries as 16 groups of 256, sums every group, divides the sums by
  4096, subtracts each group's quotient from the group's entries, re-lays the groups back into rows, and applies the
  activation entry by entry. Entry (r, c) of a row sits in group `c / 256` at place `c % 256`; place `l` of group `q`
  is column `q · 256 + l`. With these two re-indexings every stage is the specification's, term by term.
-/
import proofs.«172005_j3556232921881_2_alg».proof.Proof.Gen.ReferenceIdeal.Read
import proofs.«172005_j3556232921881_2_alg».proof.Proof.BlockGeluSpec

noncomputable section

namespace Cert.ReferenceIdeal.RefValue

open Cert.ReferenceIdeal Cert.ReferenceIdeal.Read Idealize.ShloMosaic Idealize.ShloMosaic.ValueIdx Cert.BlockGelu

variable (x0 x1 : (⟨S4096x4096, .f32⟩ : BufTy).Contents (Elt Ideal)) (x2 : (⟨S4096, .f32⟩ : BufTy).Contents (Elt Ideal))

/-- The sum of the product and the spread bias, at row `r` and column `c`, is the linear layer's entry. -/
theorem linear_apply (r c : Fin 4096) : val_main_v3 (F := Ideal) x0 x1 x2 (ix2 r c) = lin x0 x1 x2 r c := by
  have el : ∀ k : Fin 4096, lidx_main_v0 (ix2 r c) k = ix2 r k := fun k =>
    funext fun a => Fin.ext (by match a with | ⟨0, _⟩ => rfl | ⟨1, _⟩ => rfl)
  have er : ∀ k : Fin 4096, ridx_main_v0 (ix2 r c) k = ix2 c k := fun k =>
    funext fun a => Fin.ext (by match a with | ⟨0, _⟩ => rfl | ⟨1, _⟩ => rfl)
  have eb : idx_main_v1 (idx_main_v2 (ix2 r c)) = ix1 c :=
    funext fun a => Fin.ext (by match a with | ⟨0, _⟩ => rfl)
  rw [val_main_v3_apply, val_main_v0_apply, val_main_v2_apply, val_main_v1_apply, eb]
  simp only [el, er]
  rfl

/-- Place `l` of group `q` of row `r`, in the rows re-laid as groups, is the linear layer's entry at column `q · 256 + l`. -/
theorem grouped_apply (r : Fin 4096) (q : Fin 16) (l : Fin 256) :
    val_main_v4 (F := Ideal) x0 x1 x2 (ix3 r q l) = lin x0 x1 x2 r (col q l) := by
  have e : idx_main_v4 (ix3 r q l) = ix2 r (col q l) := funext fun a => Fin.ext (by
    have hr := r.isLt; have hq := q.isLt; have hl := l.isLt
    match a with
    | ⟨0, _⟩ => show ((r.val * 16 + q.val) * 256 + l.val) / 4096 = r.val; omega
    | ⟨1, _⟩ => show ((r.val * 16 + q.val) * 256 + l.val) % 4096 = q.val * 256 + l.val; omega)
  rw [val_main_v4_apply, e, linear_apply]

/-- The host's sum over a group, from the zero it starts at, is the specification's group sum. -/
theorem groupSum_apply (r : Fin 4096) (q : Fin 16) :
    val_main_v5 (F := Ideal) x0 x1 x2 (ix2 r q) = grpSum x0 x1 x2 r q := by
  have e : ∀ k : Fin 256, idx_main_v5 (ix2 r q) k = ix3 r q k := fun k =>
    funext fun a => Fin.ext (by match a with | ⟨0, _⟩ => rfl | ⟨1, _⟩ => rfl | ⟨2, _⟩ => rfl)
  rw [val_main_v5_apply, val_main_cst_apply, Ideal.ofBits_def, Ideal.ofBits_zero_f32, zero_add]
  unfold grpSum
  refine Finset.sum_congr rfl fun k _ => ?_
  rw [e k, grouped_apply]

/-- The centred rows, re-laid back: entry (r, c) is the specification's centred entry. -/
theorem centred_apply (r c : Fin 4096) :
    val_main_v11 (F := Ideal) x0 x1 x2 (ix2 r c) = centred x0 x1 x2 r c := by
  have e11 : idx_main_v11 (ix2 r c) = ix3 r (grp c) (off c) := funext fun a => Fin.ext (by
    have hr := r.isLt; have hc := c.isLt
    match a with
    | ⟨0, _⟩ => show (r.val * 4096 + c.val) / 4096 = r.val; omega
    | ⟨1, _⟩ => show (r.val * 4096 + c.val) / 256 % 16 = c.val / 256; omega
    | ⟨2, _⟩ => show (r.val * 4096 + c.val) % 256 = c.val % 256; omega)
  have e9 : idx_main_v9 (ix3 r (grp c) (off c)) = ix3 r (grp c) (0 : Fin 1) :=
    funext fun a => Fin.ext (by match a with | ⟨0, _⟩ => rfl | ⟨1, _⟩ => rfl | ⟨2, _⟩ => rfl)
  have e6 : idx_main_v6 (ix3 r (grp c) (0 : Fin 1)) = ix2 r (grp c) :=
    funext fun a => Fin.ext (by match a with | ⟨0, _⟩ => rfl | ⟨1, _⟩ => rfl)
  rw [val_main_v11_apply, e11, val_main_v10_apply, grouped_apply, col_grp_off, val_main_v9_apply, e9, val_main_v8_apply,
    val_main_v6_apply, e6, groupSum_apply, val_main_v7_apply, val_main_cst_0_apply]
  rfl

/-- The entry-by-entry tail of the reference is the activation of the centred entry. -/
theorem tail_apply (i : S4096x4096.Idx) :
    val_main_v30 (F := Ideal) x0 x1 x2 i = act (val_main_v11 (F := Ideal) x0 x1 x2 i) := by
  simp only [val_main_v30_apply, val_main_v29_apply, val_main_v28_apply, val_main_cst_8_apply, val_main_v27_apply,
    val_main_call1_v1_apply, val_main_call1_v0_apply, val_main_cst_7_apply, val_main_v26_apply, val_main_call0_v1_apply,
    val_main_call0_v0_apply, val_main_cst_6_apply, val_main_v25_apply, val_main_v24_apply, val_main_v23_apply,
    val_main_cst_5_apply, val_main_v22_apply, val_main_v21_apply, val_main_cst_4_apply, val_main_v20_apply,
    val_main_v19_apply, val_main_cst_3_apply, val_main_v18_apply, val_main_v17_apply, val_main_cst_2_apply,
    val_main_v16_apply, val_main_v15_apply, val_main_v14_apply, val_main_v13_apply, val_main_v12_apply,
    val_main_cst_1_apply]
  rfl

/-- THE REFERENCE'S RESULT is `G` of its arguments. -/
theorem result_eq : val_main_v30 (F := Ideal) x0 x1 x2 = G x0 x1 x2 := by
  funext i
  obtain ⟨r, c, rfl⟩ : ∃ (r c : Fin 4096), i = ix2 r c := ⟨i 0, i 1, eq_ix2 i⟩
  rw [tail_apply, centred_apply, G_ix2]

end Cert.ReferenceIdeal.RefValue

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.KernelBlock.lean ====
/-
  What the kernel's body computes for one block of 1024 rows by 256 columns, entry by entry.

  The body takes 1024 rows of `x` (the block `X`), 256 rows of `w` (the block `W`: one group of output columns) and
  the 256 bias entries of that group (the one-row block `Bv`). It forms `X · Wᵀ` into a zero accumulator and adds the
  bias row to every row; sums each row over its 256 lanes; keeps the sums as a column, divides the column by 4096 and
  spreads it back over the 256 lanes; subtracts; and applies the activation entry by entry. The block is exactly one
  group of columns, so the lane sum IS the group sum: entry (p, l) is the activation of
  `y p l - (∑ⱼ y p j) / 4096` with `y p l = (∑ₖ X[p, k] · W[l, k]) + Bv[0, l]`.
-/
import proofs.«172005_j3556232921881_2_alg».proof.Proof.Gen.KernelIdeal.Skeleton
import proofs.«172005_j3556232921881_2_alg».proof.Proof.BlockGeluSpec
import proofs.«172005_j3556232921881_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.BlockGelu

/-- The body's one contraction: rows of the `x` block against rows of the `w` block. -/
abbrev dotXW : DotDims S1024x4096 S256x4096 S1024x256 := dot_S1024x4096_S256x4096_S1024x256_1_1_0_0_n_n

theorem lhs_row (i : S1024x256.Idx) (q : dotXW.contr.Idx) : (dotXW.lhsIdx i q 0).val = (i 0).val := by
  unfold DotDims.lhsIdx
  rw [dif_neg (show ¬(0 : Fin S1024x4096.rank) ∈ dotXW.lhsBatch by decide),
    dif_pos (show (0 : Fin S1024x4096.rank) ∈ dotXW.lhsNonContracting by decide)]
  rfl

theorem lhs_contr (i : S1024x256.Idx) (q : dotXW.contr.Idx) : (dotXW.lhsIdx i q 1).val = (q ⟨0, by decide⟩).val :=
  dotXW.lhsIdx_val_of_single rfl i q

theorem rhs_row (i : S1024x256.Idx) (q : dotXW.contr.Idx) : (dotXW.rhsIdx i q 0).val = (i 1).val := by
  unfold DotDims.rhsIdx
  rw [dif_neg (show ¬(0 : Fin S256x4096.rank) ∈ dotXW.rhsBatch by decide),
    dif_pos (show (0 : Fin S256x4096.rank) ∈ dotXW.rhsNonContracting by decide)]
  rfl

theorem rhs_contr (i : S1024x256.Idx) (q : dotXW.contr.Idx) : (dotXW.rhsIdx i q 1).val = (q ⟨0, by decide⟩).val :=
  dotXW.rhsIdx_val_of_single rfl i q

/-- The product into a zero accumulator, at (p, l): row `p` of the first operand against row `l` of the second. -/
theorem product_apply (A : FVec Ideal S1024x4096 .bf16) (B : FVec Ideal S256x4096 .bf16) (p : Fin 1024) (l : Fin 256) :
    matmul dotXW none A B (constant (F := Ideal) S1024x256 .f32 0x00000000#32) (ix2 p l)
      = ∑ k : Fin 4096, A (ix2 p k) * B (ix2 l k) := by
  refine (Ideal.matmul_constant_zero_apply dotXW none A B (ix2 p l)).trans ?_
  rw [← Equiv.sum_comp (contrEquiv1 dotXW 4096 rfl rfl).symm]
  refine Finset.sum_congr rfl fun k _ => ?_
  have hk := contrEquiv1_symm_val dotXW 4096 rfl rfl k
  have el : dotXW.lhsIdx (ix2 p l) ((contrEquiv1 dotXW 4096 rfl rfl).symm k) = ix2 p k := funext fun a => Fin.ext (by
    match a with
    | ⟨0, _⟩ => exact lhs_row _ _
    | ⟨1, _⟩ => exact (lhs_contr _ _).trans hk)
  have er : dotXW.rhsIdx (ix2 p l) ((contrEquiv1 dotXW 4096 rfl rfl).symm k) = ix2 l k := funext fun a => Fin.ext (by
    match a with
    | ⟨0, _⟩ => exact rhs_row _ _
    | ⟨1, _⟩ => exact (rhs_contr _ _).trans hk)
  rw [el, er]

variable (X : FVec Ideal S1024x4096 .bf16) (W : FVec Ideal S256x4096 .bf16) (Bv : FVec Ideal S1x256 .f32)

/-- Entry (p, l) of the block's linear layer. -/
def blin (p : Fin 1024) (l : Fin 256) : EReal :=
  (∑ k : Fin 4096, X (ix2 p k) * W (ix2 l k)) + Bv (ix2 (0 : Fin 1) l)

/-- The block before centring, as the body writes it: the product plus the bias row spread over the rows. -/
def pre : FVec Ideal S1024x256 .f32 :=
  addf (matmul dotXW none (shapeCast S1024x4096 X Gen.shapeCasts_S1024x4096_S1024x4096)
      (shapeCast S256x4096 W Gen.shapeCasts_S256x4096_S256x4096) (constant (F := Ideal) S1024x256 .f32 0x00000000#32))
    (broadcastTo S1024x256 (shapeCast S1x256 Bv Gen.shapeCasts_S1x256_S1x256) Gen.broadcasts_S1x256_S1024x256)

theorem pre_apply (p : Fin 1024) (l : Fin 256) : pre X W Bv (ix2 p l) = blin X W Bv p l := by
  unfold pre blin
  rw [shapeCast_self, shapeCast_self, shapeCast_self, addf_apply, product_apply,
    broadcastTo_1b_ab_apply (a := 1024) (b := 256) Bv Gen.broadcasts_S1x256_S1024x256 p l]

/-- The row sums of the block, as the body writes them (a lane reduction from zero). -/
def rowSums : FVec Ideal S1024 .f32 :=
  multiReduction .add [1] S1024 (pre X W Bv) 0x00000000#32 Gen.reduces_S1024x256_S1024 (.inl rfl) rfl

/-- The index a sum over the lanes inserts lane `k` into: row `p` with lane `k` is (p, k). -/
theorem lane_index (h : S1024x256.Reduces [1] S1024) (p : Fin 1024) (k : Fin 256) : h.lift (ix1 p) k = ix2 p k :=
  funext fun a => Fin.ext (by match a with | ⟨0, _⟩ => rfl | ⟨1, _⟩ => rfl)

theorem rowSums_apply (p : Fin 1024) : rowSums X W Bv (ix1 p) = ∑ j : Fin 256, blin X W Bv p j := by
  unfold rowSums
  refine (Ideal.multiReduction_add_single (pre X W Bv) 0x00000000#32 Gen.reduces_S1024x256_S1024 (.inl rfl) rfl (ix1 p)).trans ?_
  show ∑ k : Fin 256, pre X W Bv (Gen.reduces_S1024x256_S1024.lift (ix1 p) k) = ∑ j : Fin 256, blin X W Bv p j
  exact Finset.sum_congr rfl fun k _ =>
    (congrArg (pre X W Bv) (lane_index Gen.reduces_S1024x256_S1024 p k)).trans (pre_apply X W Bv p k)

/-- The centred block, as the body writes it: the block less its row sums over 4096, kept as a column and spread back. -/
def ctr : FVec Ideal S1024x256 .f32 :=
  subf (pre X W Bv)
    (broadcastTo S1024x256
      (divf (shapeCast S1024x1 (rowSums X W Bv) Gen.shapeCasts_S1024_S1024x1)
        (broadcast S1024x1 (Scalar.ofBits (F := Ideal) .f32 0x45800000#32)))
      Gen.broadcasts_S1024x1_S1024x256)

theorem ctr_apply (p : Fin 1024) (l : Fin 256) :
    ctr X W Bv (ix2 p l)
      = blin X W Bv p l - Ideal.div (∑ j : Fin 256, blin X W Bv p j) (Ideal.ofBits .f32 0x45800000#32) := by
  unfold ctr
  rw [subf_apply, pre_apply,
    Cert.Rbf.Keepdims.broadcastTo_a1_ab_apply (a := 1024) (b := 256) _ Gen.broadcasts_S1024x1_S1024x256 p l,
    divf_apply,
    Cert.Rbf.Keepdims.shapeCast_a_a1_apply (a := 1024) (rowSums X W Bv) Gen.shapeCasts_S1024_S1024x1 p (0 : Fin 1),
    rowSums_apply]
  rfl

/-- THE BODY'S STORED VALUE is the activation of the centred block, entry by entry: the printed chain of entrywise
    operations after the centring is the activation's own chain. -/
theorem payload_eq : k0_pay1 (F := Ideal) X W Bv = fun j => act (ctr X W Bv j) := rfl

/-- Entry (p, l) of what the body stores. -/
theorem payload_apply (p : Fin 1024) (l : Fin 256) :
    k0_pay1 (F := Ideal) X W Bv (ix2 p l)
      = act (blin X W Bv p l - Ideal.div (∑ j : Fin 256, blin X W Bv p j) (Ideal.ofBits .f32 0x45800000#32)) := by
  rw [payload_eq]
  show act (ctr X W Bv (ix2 p l)) = _
  rw [ctr_apply]

/-- THE BLOCK IS A BLOCK OF THE SPECIFICATION. When `X` holds the rows `row p` of `x`, `W` the rows of `w` that are the
    columns of group `q`, and `Bv` the bias entries of group `q`, entry (p, l) of what the body stores is the specified
    result at row `row p` and column `l` of group `q`: the lanes of the block are exactly the columns of the group, so the
    lane sum is the group sum. -/
theorem payload_is_spec (x w : (⟨2, ![4096, 4096]⟩ : Shape).Idx → EReal) (b : (⟨1, ![4096]⟩ : Shape).Idx → EReal)
    (row : Fin 1024 → Fin 4096) (q : Fin 16)
    (hX : ∀ (p : Fin 1024) (k : Fin 4096), X (ix2 p k) = x (ix2 (row p) k))
    (hW : ∀ (l : Fin 256) (k : Fin 4096), W (ix2 l k) = w (ix2 (col q l) k))
    (hB : ∀ l : Fin 256, Bv (ix2 (0 : Fin 1) l) = b (ix1 (col q l)))
    (p : Fin 1024) (l : Fin 256) :
    k0_pay1 (F := Ideal) X W Bv (ix2 p l) = G x w b (ix2 (row p) (col q l)) := by
  have hlin : ∀ l' : Fin 256, blin X W Bv p l' = lin x w b (row p) (col q l') := fun l' => by
    unfold blin lin
    rw [hB l']
    exact congrArg (· + b (ix1 (col q l'))) (Finset.sum_congr rfl fun k _ => by rw [hX, hW])
  rw [payload_apply, G_ix2]
  unfold centred grpSum
  rw [grp_col]
  simp only [hlin]

end Cert.KernelIdeal.Block

end
-- ==== Proof.KernelWhole.lean ====
/-
  From the blocks to the whole array: after the kernel's run the result array holds the specified function `G` of the
  three arguments.

  The grid has 4 × 16 points; point (i, j) takes rows 1024·i … 1024·i + 1023 of `x`, rows 256·j … 256·j + 255 of `w`
  (the columns of group `j`), the bias entries of group `j`, and writes the block of the result at block row `i`, block
  column `j`. The arrays the region reads are the arguments themselves: `x` and `w` after a change of float format,
  which on the extended reals is the identity, and the bias viewed as one row. So what each point writes back is the
  block of `G` at its place, and the 64 blocks tile the 4096 × 4096 result.
-/
import proofs.«172005_j3556232921881_2_alg».proof.Proof.Gen.KernelIdeal.Value
import proofs.«172005_j3556232921881_2_alg».proof.Proof.KernelBlock
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Cert.BlockGelu
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region reads are the arguments -/

/-- The `x` the region reads is the argument, entry by entry: the change of format is the identity. -/
theorem entry_x (c : Dev nD) (i : S4096x4096.Idx) :
    (V m c main_v0 : S4096x4096.Idx → EReal) i = (m ((c : Thread nD τ).loc main_arg0) : S4096x4096.Idx → EReal) i := by
  have e : V m c main_v0 = fun j => (m ((c : Thread nD τ).loc main_arg0) : S4096x4096.Idx → EReal) j := by
    dsimp only [Gen.V, Gen.hostOps0]; after_results; rfl
  rw [e]

/-- The `w` the region reads is the argument, entry by entry. -/
theorem entry_w (c : Dev nD) (i : S4096x4096.Idx) :
    (V m c main_v1 : S4096x4096.Idx → EReal) i = (m ((c : Thread nD τ).loc main_arg1) : S4096x4096.Idx → EReal) i := by
  have e : V m c main_v1 = fun j => (m ((c : Thread nD τ).loc main_arg1) : S4096x4096.Idx → EReal) j := by
    dsimp only [Gen.V, Gen.hostOps0]; after_results; rfl
  rw [e]

/-- The one-row bias the region reads, at column `n`, is the bias argument at `n`. -/
theorem entry_b (c : Dev nD) (u : Fin 1) (n : Fin 4096) :
    (V m c main_v2 : S1x4096.Idx → EReal) (ix2 u n) = (m ((c : Thread nD τ).loc main_arg2) : S4096.Idx → EReal) (ix1 n) := by
  have e : (V m c main_v2 : S1x4096.Idx → EReal)
      = shapeCast S1x4096 (m ((c : Thread nD τ).loc main_arg2) : S4096.Idx → EReal) Gen.shapeCasts_S4096_S1x4096 := by
    dsimp only [Gen.V, Gen.hostOps0]; after_results; rfl
  rw [e]
  exact shapeCast_a_1a_apply (a := 4096) _ Gen.shapeCasts_S4096_S1x4096 u n

/-! ## The index maps over the grid -/

/-- The printed index maps, decided over the 64 points: the `x` window follows the result's block row, the `w` and bias
    windows follow the result's block column, and the block indices stay in their ranges. -/
theorem index_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 15 :=
  (by decide +kernel : ∀ t : Fin grid0.N, _)

/-- Every block of the result is some point's. -/
theorem index_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-- The row of the result that row `p` of point `t`'s block is. -/
def rowAt (t : Fin cfg0.N) (p : Fin 1024) : Fin 4096 :=
  ⟨win0_3.index t (0 : Fin 2) * 1024 + p.val, by have := (index_facts t).2.2.2.2.2.2.1; have := p.isLt; omega⟩

/-- The group of columns point `t` writes. -/
def grpAt (t : Fin cfg0.N) : Fin 16 :=
  ⟨win0_3.index t (1 : Fin 2), by have := (index_facts t).2.2.2.2.2.2.2; omega⟩

/-! ## The three input blocks at a point -/

/-- Row `p` of the `x` block at point `t` is row `rowAt t p` of the argument. -/
theorem xblock_apply (c : Dev nD) (t : Fin cfg0.N) (p : Fin 1024) (k : Fin 4096) :
    (iblk m c 0 t : Vec Ideal S1024x4096 .bf16) (ix2 p k)
      = (m ((c : Thread nD τ).loc main_arg0) : S4096x4096.Idx → EReal) (ix2 (rowAt t p) k) := by
  obtain ⟨e0, e1, -⟩ := index_facts t
  show (V m c main_v0 : S4096x4096.Idx → EReal) (((cfg0.win 0).blk t).view.emb (ix2 p k)) = _
  rw [entry_x]
  refine congrArg _ (funext fun a => Fin.ext ?_)
  match a with
  | ⟨0, _⟩ => show win0_0.index t (0 : Fin 2) * 1024 + 1 * p.val = win0_3.index t (0 : Fin 2) * 1024 + p.val; omega
  | ⟨1, _⟩ => show win0_0.index t (1 : Fin 2) * 4096 + 1 * k.val = k.val; omega

/-- Row `l` of the `w` block at point `t` is the row of the argument that is column `l` of the point's group. -/
theorem wblock_apply (c : Dev nD) (t : Fin cfg0.N) (l : Fin 256) (k : Fin 4096) :
    (iblk m c 1 t : Vec Ideal S256x4096 .bf16) (ix2 l k)
      = (m ((c : Thread nD τ).loc main_arg1) : S4096x4096.Idx → EReal) (ix2 (col (grpAt t) l) k) := by
  obtain ⟨-, -, e2, e3, -⟩ := index_facts t
  show (V m c main_v1 : S4096x4096.Idx → EReal) (((cfg0.win 1).blk t).view.emb (ix2 l k)) = _
  rw [entry_w]
  refine congrArg _ (funext fun a => Fin.ext ?_)
  match a with
  | ⟨0, _⟩ => show win0_1.index t (0 : Fin 2) * 256 + 1 * l.val = win0_3.index t (1 : Fin 2) * 256 + l.val; omega
  | ⟨1, _⟩ => show win0_1.index t (1 : Fin 2) * 4096 + 1 * k.val = k.val; omega

/-- Entry `l` of the bias block at point `t` is the bias at column `l` of the point's group. -/
theorem bblock_apply (c : Dev nD) (t : Fin cfg0.N) (l : Fin 256) :
    (iblk m c 2 t : Vec Ideal S1x256 .f32) (ix2 (0 : Fin 1) l)
      = (m ((c : Thread nD τ).loc main_arg2) : S4096.Idx → EReal) (ix1 (col (grpAt t) l)) := by
  obtain ⟨-, -, -, -, e4, e5, -⟩ := index_facts t
  show (V m c main_v2 : S1x4096.Idx → EReal) (((cfg0.win 2).blk t).view.emb (ix2 (0 : Fin 1) l)) = _
  have hidx : ((cfg0.win 2).blk t).view.emb (ix2 (0 : Fin 1) l) = ix2 (0 : Fin 1) (col (grpAt t) l) :=
    funext fun a => Fin.ext (by
      match a with
      | ⟨0, _⟩ => show win0_2.index t (0 : Fin 2) * 1 + 1 * 0 = 0; omega
      | ⟨1, _⟩ => show win0_2.index t (1 : Fin 2) * 256 + 1 * l.val = win0_3.index t (1 : Fin 2) * 256 + l.val; omega)
  rw [hidx, entry_b]

/-! ## What a point writes back, the cover, and the array after the run -/

/-- The specified result of the launch memory's three arguments. -/
abbrev result (c : Dev nD) : S4096x4096.Idx → EReal :=
  G (m ((c : Thread nD τ).loc main_arg0)) (m ((c : Thread nD τ).loc main_arg1)) (m ((c : Thread nD τ).loc main_arg2))

/-- WHAT POINT `t` WRITES BACK is block `t` of the specified result. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S1024x4096) zero_offsets, View.ld_unit_zero (S := S256x4096) zero_offsets,
    View.ld_unit_zero (S := S1x256) zero_offsets]
  funext y
  obtain ⟨p, l, rfl⟩ : ∃ (p : Fin 1024) (l : Fin 256), y = ix2 p l := ⟨y 0, y 1, eq_ix2 y⟩
  show k0_pay1 (F := Ideal) (iblk m c 0 t) (iblk m c 1 t) (iblk m c 2 t) (ix2 p l)
    = result m c (((cfg0.win 3).blk t).view.emb (ix2 p l))
  refine (Block.payload_is_spec (iblk m c 0 t) (iblk m c 1 t) (iblk m c 2 t) _ _ _ (rowAt t) (grpAt t)
    (xblock_apply m c t) (wblock_apply m c t) (bblock_apply m c t) p l).trans ?_
  refine congrArg (result m c) (funext fun a => Fin.ext ?_)
  match a with
  | ⟨0, _⟩ => show win0_3.index t (0 : Fin 2) * 1024 + p.val = win0_3.index t (0 : Fin 2) * 1024 + 1 * p.val; omega
  | ⟨1, _⟩ => show win0_3.index t (1 : Fin 2) * 256 + l.val = win0_3.index t (1 : Fin 2) * 256 + 1 * l.val; omega

/-- An entry of the result is in point `t`'s block iff each coordinate is in the block's range on its axis. -/
theorem mem_block (t : Fin cfg0.N) (i : S4096x4096.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v3).slice (win0_3.rect t)).set ↔ _
  rw [View.set_slice_whole, Rect.mem_set_unit]
  exact Iff.rfl

/-- THE BLOCKS TILE THE RESULT: entry (r, n) is in the block at block row `r / 1024`, block column `n / 256`. -/
theorem covered (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- THE RESULT ARRAY after the run is the specified function of the three arguments. -/
theorem final (c : Dev nD) : (dats m 0 c).arrAt 3 cfg0.N = result m c :=
  (dats m 0 c).arrAt_eq_of_cover 3 (result m c) (fun t _ => flushed_eq m c t) covered

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  A linear layer followed by a per-group centring and a clamped-tanh activation: the kernel and its reference compute
  one function on the extended reals.

  Both programs take `x` (4096 × 4096), `w` (4096 × 4096) and a bias `b` (4096), form `y[r, c] = (∑ₖ x[r, k] · w[c, k]) + b[c]`,
  subtract from every entry the sum of its row over its own group of 256 consecutive columns divided by 4096, and
  apply `z ↦ (½ · z) · (1 + t)` with `t` the tanh of `κ₁ · (z + κ₀ · z · z · z)` clamped to `±1` outside `[-5, 5]`.
  The kernel does it block by block, 1024 rows by one group of columns at a time, summing the group as the lanes of
  its block; the reference re-lays each row as 16 groups and sums each. The same operations meet the same entries in
  the same order on both sides, the float constants are the same binary words, a change of float format is the
  identity on the extended reals, and a product into a zero accumulator, a lane sum and a sum from zero are plain finite
  sums: only re-indexings of sums join the two, so the inputs' finiteness is never used.

  `BlockGeluSpec` states the function; `ReferenceIsSpec` reads the reference's operations as it; `KernelBlock` reads
  what the kernel's body stores for one block; `KernelWhole` places the 64 blocks in the result array. The three frames
  are the generated ones (the reference's is its run with the result dropped); the idealization rewrote nothing.
-/
import proofs.«172005_j3556232921881_2_alg».proof.Defs
import proofs.«172005_j3556232921881_2_alg».proof.Proof.Gen.Kernel
import proofs.«172005_j3556232921881_2_alg».proof.Proof.Gen.Kernel.Frame
import proofs.«172005_j3556232921881_2_alg».proof.Proof.Gen.KernelIdeal
import proofs.«172005_j3556232921881_2_alg».proof.Proof.Gen.KernelIdeal.Frame
import proofs.«172005_j3556232921881_2_alg».proof.Proof.Gen.KernelIdeal.Value
import proofs.«172005_j3556232921881_2_alg».proof.Proof.Gen.ReferenceIdeal
import proofs.«172005_j3556232921881_2_alg».proof.Proof.Gen.ReferenceIdeal.Run
import proofs.«172005_j3556232921881_2_alg».proof.Proof.Gen.ReferenceIdeal.Read
import proofs.«172005_j3556232921881_2_alg».proof.Proof.Gen.Pre_finite_inputs
import proofs.«172005_j3556232921881_2_alg».proof.Proof.BlockGeluSpec
import proofs.«172005_j3556232921881_2_alg».proof.Proof.ReferenceIsSpec
import proofs.«172005_j3556232921881_2_alg».proof.Proof.KernelWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve beyond the text itself. -/
theorem preserves : Cert.preserves_Kernel_KernelIdeal := trivial

/-- From memories that agree on the three arguments, the kernel's result array and the reference's both end at the
    specified function `G` of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
